-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩
abbrev S5000x1 : Shape := ⟨2, ![5000, 1]⟩
abbrev S1x1 : Shape := ⟨2, ![1, 1]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S100000, .f32⟩
  | .hbm, ⟨18, _⟩ => ⟨S640000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S100000x128, .f32⟩
  | .hbm, ⟨38, _⟩ => ⟨S640000x1, .i32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S_, .i32⟩
  | .hbm, ⟨56, _⟩ => ⟨S_, .f32⟩
  | .hbm, ⟨57, _⟩ => ⟨S128x128, .f32⟩
  | .hbm, ⟨58, _⟩ => ⟨S1x1, .f32⟩
  | .hbm, ⟨59, _⟩ => ⟨S_, .i32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x1, .f32⟩
  | .local _ .vmem, ⟨23, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S128x1_S128x128_000_01270 : S128x1.Pads (![0, 0] : Fin 2 → Nat) ![0, 127] ![0, 0] S128x128
  h_S_ : 0 < S_.numel
  shapeCasts_S1_S1x1 : S1.ShapeCasts S1x1
  pads_S1x1_S1x128_000_01270 : S1x1.Pads (![0, 0] : Fin 2 → Nat) ![0, 127] ![0, 0] S1x128
  shapeCasts_S128x128_S128x128 : S128x128.ShapeCasts S128x128
  slices_S5000x128_o0_0_S5000x1 : S5000x128.Slices ![0, 0] S5000x1
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S100000x1.size a
  hwx1_8 : ∀ i : grid1.Coords, EltTy.bits .f32 = 32 ∨ (Rect.block (s := S100000x1) S5000x1.size (cc1_transform_8 i) (hinb1_8 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S100000x128, .f32⟩
  | .hbm, ⟨25, _⟩ => ⟨S640000x1, .i32⟩
  | .hbm, ⟨26, _⟩ => ⟨S100000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S100000, .f32⟩
  | .hbm, ⟨31, _⟩ => ⟨S640000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x640000, .i32⟩
  | .hbm, ⟨49, _⟩ => ⟨S640000, .i32⟩
  | .hbm, ⟨50, _⟩ => ⟨S1x640000, .i32⟩
  | .hbm, ⟨51, _⟩ => ⟨S640000, .i32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S_, .f32⟩
  | .hbm, ⟨66, _⟩ => ⟨S640000, .f32⟩
  | .hbm, ⟨67, _⟩ => ⟨S_, .f32⟩
  | .hbm, ⟨68, _⟩ => ⟨S100000, .f32⟩
  | .hbm, ⟨69, _⟩ => ⟨S640000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run, with what every buffer holds at the end.

  The program is eight segments: the host operations before the first pallas_call, that call, five stretches of host
  operations, and the second call.  The contents of the TensorCore's buffers at the segment boundaries are a fold
  from the launch memory: a host stretch applies its operations, a call leaves each of its arrays at what its
  write-backs leave.  Every weakly fair execution terminates with every unscoped buffer at the last boundary's
  contents; in particular the result buffer holds what the second call's write-backs leave in it, and the arguments
  are as launched.
-/
import proofs.«122971_j81681688035648_2_alg».proof.Proof.Gen.KernelIdeal.Frame
import proofs.«122971_j81681688035648_2_alg».proof.Proof.RunHeld

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The same run, read at the result buffer and at the arguments: the result holds the last boundary's contents of
    its buffer, the arguments what they were launched with. -/
theorem run_result : θ_run defs (onTc (τ := τ) (main (F := F))) ⟨m, fun _ => 0, ρ⟩ (fun r => ∀ c : Dev nD,
      r.2.mem ((c.tc : Thread nD τ).loc main_v39) = W8 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v39 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)
    (Held.run_held m ρ)

end Cert.KernelIdeal.Run

end
-- ==== Proof.LibColumn.lean ====
/-
  A column broadcast along the lanes, read by coordinates.
-/
import Idealize.ShloMosaic.Lib.Pipeline.Value
import Idealize.ShloMosaic.Lib.ValueIdx

namespace Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPay.lean ====
/-
  The two kernel bodies' stored values, read entry by entry on the extended reals.

  Each body computes, for a block of 5000 node rows, the layer
      relu ( (agg * inv) · W_l  +  h · W_r  +  b )
  where `agg` is the block of summed neighbour features, `inv` the block's column of reciprocal clamped
  degrees, `h` the block of the nodes' own features.  A matrix product into a zero accumulator is, entry by
  entry, the plain sum over the 128 contracted features; the changes of float format around it are the
  identity.  The second body goes on to multiply the layer by the zero-padded output weights, add the padded
  output bias, and keep column 0.
-/
import proofs.«122971_j81681688035648_2_alg».proof.Proof.Gen.KernelIdeal.Skeleton
import proofs.«122971_j81681688035648_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The block matrix product at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator: entry `(p, q)` is the sum over the contracted feature `k` of
    the left operand at `(p, k)` times the right operand at `(k, q)`. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The first body -/

/-- One entry of a layer in the kernel's arrangement, from the rows and columns it depends on. -/
def layerEntry (a x : Fin 128 → EReal) (inv : EReal) (wl wr : Fin 128 → EReal) (b : EReal) : EReal :=
  max ((∑ k : Fin 128, (a k * inv) * wl k + ∑ k : Fin 128, x k * wr k) + b) (Ideal.ofBits .f32 0x00000000#32)

/-- Two layer entries from equal rows, columns, reciprocal and bias are equal. -/
theorem layerEntry_congr {a a' x x' wl wl' wr wr' : Fin 128 → EReal} {inv inv' b b' : EReal}
    (ha : ∀ k, a k = a' k) (hx : ∀ k, x k = x' k) (hi : inv = inv') (hl : ∀ k, wl k = wl' k) (hr : ∀ k, wr k = wr' k)
    (hb : b = b') : layerEntry a x inv wl wr b = layerEntry a' x' inv' wl' wr' b' := by
  rw [funext ha, funext hx, hi, funext hl, funext hr, hb]

theorem k0_pay1_at (v0 : Vec Ideal S5000x128 .f32) (v2 : Vec Ideal S5000x1 .f32) (v7 : Vec Ideal S5000x128 .f32)
    (v9 v11 : Vec Ideal S128x128 .f32) (v16 : Vec Ideal S1x128 .f32) (p : Fin 5000) (q : Fin 128) :
    k0_pay1 (F := Ideal) v0 v2 v7 v9 v11 v16 (ix2 p q)
      = layerEntry (fun k => v0 (ix2 p k)) (fun k => v7 (ix2 p k)) (v2 (ix2 p (0 : Fin 1)))
          (fun k => v9 (ix2 k q)) (fun k => v11 (ix2 k q)) (v16 (ix2 (0 : Fin 1) q)) := by
  unfold k0_pay1 layerEntry
  simp only [shapeCast_self]
  rw [maximumf_apply, addf_apply, addf_apply, matmul_at, matmul_at, broadcast_apply, broadcastTo_1b_ab_apply]
  simp only [truncf_apply, mulf_apply, broadcastTo_a1_ab_apply]
  rfl

/-! ## The second body -/

theorem k1_pay1_at (v0 : Vec Ideal S5000x128 .f32) (v2 : Vec Ideal S5000x1 .f32) (v7 : Vec Ideal S5000x128 .f32)
    (v10 v12 : Vec Ideal S128x128 .f32) (v17 : Vec Ideal S1x128 .f32) (v25 : Vec Ideal S128x128 .f32) (v29 : Vec Ideal S1x128 .f32)
    (p : Fin 5000) (u : Fin 1) :
    k1_pay1 (F := Ideal) v0 v2 v7 v10 v12 v17 v25 v29 (ix2 p u)
      = (∑ j : Fin 128, layerEntry (fun k => v0 (ix2 p k)) (fun k => v7 (ix2 p k)) (v2 (ix2 p (0 : Fin 1)))
            (fun k => v10 (ix2 k j)) (fun k => v12 (ix2 k j)) (v17 (ix2 (0 : Fin 1) j)) * v25 (ix2 j (0 : Fin 128)))
          + v29 (ix2 (0 : Fin 1) (0 : Fin 128)) := by
  unfold k1_pay1 layerEntry
  simp only [shapeCast_self]
  rw [slice2_axis1_apply 0 _ _ p u (0 : Fin 128) (by have := u.isLt; show (0 : ℕ) = 0 + u.val; omega)]
  rw [addf_apply, matmul_at, broadcastTo_1b_ab_apply]
  simp only [truncf_apply, maximumf_apply, addf_apply, matmul_at, broadcast_apply, broadcastTo_1b_ab_apply, mulf_apply,
    broadcastTo_a1_ab_apply]
  rfl

end Cert.KernelIdeal.Pay

end
-- ==== Proof.Blocks0.lean ====
/-
  The first pallas_call, from blocks to the whole array.

  The grid has 20 points; point `t` works on node rows `5000 t … 5000 t + 4999`: it reads those rows of the
  aggregated features, of the reciprocal-degree column and of the nodes' own features, and the whole of the two
  weight matrices and of the bias row, and writes those rows of the layer's output.  Entry `(n, j)` of the output
  depends only on row `n` of the three row-blocked inputs and on column `j` of the weights and bias, so the block
  a point writes back is the restriction to its rows of ONE function of the whole arrays; the 20 row ranges tile the
  100000 rows, so after the last point the output array is that function.  All of it holds for whatever contents
  the TensorCore's buffers have when the call is entered.
-/
import proofs.«122971_j81681688035648_2_alg».proof.Proof.Gen.KernelIdeal.Frame
import proofs.«122971_j81681688035648_2_alg».proof.Proof.KernelPay
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The node (row) of an entry of a `[100000, 128]` array, and its feature (column). -/
abbrev row (i : S100000x128.Idx) : Fin 100000 := ⟨(i 0).val, (i 0).isLt⟩
abbrev col (i : S100000x128.Idx) : Fin 128 := ⟨(i 1).val, (i 1).isLt⟩

/-- One layer on whole arrays, in the kernel's arrangement: entry `(n, j)` from row `n` of the aggregate, of the
    reciprocal column and of the features, and column `j` of the weights and the bias row. -/
def layerArr (a : S100000x128.Idx → EReal) (inv : S100000x1.Idx → EReal) (x : S100000x128.Idx → EReal)
    (wl : S128x128.Idx → EReal) (b : S1x128.Idx → EReal) (wr : S128x128.Idx → EReal) : S100000x128.Idx → EReal :=
  fun i => Pay.layerEntry (fun k => a (ix2 (row i) k)) (fun k => x (ix2 (row i) k)) (inv (ix2 (row i) (0 : Fin 1)))
    (fun k => wl (ix2 k (col i))) (fun k => wr (ix2 k (col i))) (b (ix2 (0 : Fin 1) (col i)))

/-- The printed index maps over the grid: the three row-blocked inputs move with the output's row block and sit at
    column block 0; the weights and the bias stay at block (0, 0); the output's row block is below 20. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 19 :=
  (by decide +kernel : ∀ t : Fin grid0.N, _)

/-- Every row block is some point's. -/
theorem idx_onto : ∀ q0 : Fin 20, ∃ t : Fin cfg0.N, win0_6.index t = ![q0.val, 0] :=
  (by decide +kernel : ∀ q0 : Fin 20, ∃ t : Fin grid0.N, win0_6.index t = ![q0.val, 0])

/-! ## The input blocks of point `t`, read where the output's rows and columns say -/

section Reads
variable (c : Dev nD) (t : Fin cfg0.N) (p : Fin 5000) (q : Fin 128)

/-- The aggregate's block: row `p` of the block is the output entry's node. -/
theorem read_agg (k : Fin 128) :
    iblk0 V c 0 t (ix2 p k) = V c main_v22 (ix2 (row (((cfg0.win 6).blk t).view.emb (ix2 p q))) k) := by
  obtain ⟨e0, e1, e2, e3, e4, e5, e6, e7, e8, e9, e10, e11, e12, e13⟩ := idx_facts t
  show V c main_v22 (((cfg0.win 0).blk t).view.emb (ix2 p k)) = _
  refine congrArg (V c main_v22) (funext fun a => Fin.ext ?_)
  match a with
  | ⟨0, _⟩ => show win0_0.index t (0 : Fin 2) * 5000 + 1 * p.val = win0_6.index t (0 : Fin 2) * 5000 + 1 * p.val; omega
  | ⟨1, _⟩ => show win0_0.index t (1 : Fin 2) * 128 + 1 * k.val = k.val; omega

/-- The reciprocal column's block. -/
theorem read_inv :
    iblk0 V c 1 t (ix2 p (0 : Fin 1)) = V c main_v12 (ix2 (row (((cfg0.win 6).blk t).view.emb (ix2 p q))) (0 : Fin 1)) := by
  obtain ⟨e0, e1, e2, e3, e4, e5, e6, e7, e8, e9, e10, e11, e12, e13⟩ := idx_facts t
  show V c main_v12 (((cfg0.win 1).blk t).view.emb (ix2 p (0 : Fin 1))) = _
  refine congrArg (V c main_v12) (funext fun a => Fin.ext ?_)
  match a with
  | ⟨0, _⟩ => show win0_1.index t (0 : Fin 2) * 5000 + 1 * p.val = win0_6.index t (0 : Fin 2) * 5000 + 1 * p.val; omega
  | ⟨1, _⟩ => show win0_1.index t (1 : Fin 2) * 1 + 1 * 0 = 0; omega

/-- The nodes' own features' block. -/
theorem read_self (k : Fin 128) :
    iblk0 V c 2 t (ix2 p k) = V c main_arg0 (ix2 (row (((cfg0.win 6).blk t).view.emb (ix2 p q))) k) := by
  obtain ⟨e0, e1, e2, e3, e4, e5, e6, e7, e8, e9, e10, e11, e12, e13⟩ := idx_facts t
  show V c main_arg0 (((cfg0.win 2).blk t).view.emb (ix2 p k)) = _
  refine congrArg (V c main_arg0) (funext fun a => Fin.ext ?_)
  match a with
  | ⟨0, _⟩ => show win0_2.index t (0 : Fin 2) * 5000 + 1 * p.val = win0_6.index t (0 : Fin 2) * 5000 + 1 * p.val; omega
  | ⟨1, _⟩ => show win0_2.index t (1 : Fin 2) * 128 + 1 * k.val = k.val; omega

/-- The neighbour weights: the whole matrix at every point. -/
theorem read_wl (k : Fin 128) :
    iblk0 V c 3 t (ix2 k q) = V c main_arg2 (ix2 k (col (((cfg0.win 6).blk t).view.emb (ix2 p q)))) := by
  obtain ⟨e0, e1, e2, e3, e4, e5, e6, e7, e8, e9, e10, e11, e12, e13⟩ := idx_facts t
  show V c main_arg2 (((cfg0.win 3).blk t).view.emb (ix2 k q)) = _
  refine congrArg (V c main_arg2) (funext fun a => Fin.ext ?_)
  match a with
  | ⟨0, _⟩ => show win0_3.index t (0 : Fin 2) * 128 + 1 * k.val = k.val; omega
  | ⟨1, _⟩ => show win0_3.index t (1 : Fin 2) * 128 + 1 * q.val = win0_6.index t (1 : Fin 2) * 128 + 1 * q.val; omega

/-- The bias row. -/
theorem read_b :
    iblk0 V c 4 t (ix2 (0 : Fin 1) q) = V c main_v23 (ix2 (0 : Fin 1) (col (((cfg0.win 6).blk t).view.emb (ix2 p q)))) := by
  obtain ⟨e0, e1, e2, e3, e4, e5, e6, e7, e8, e9, e10, e11, e12, e13⟩ := idx_facts t
  show V c main_v23 (((cfg0.win 4).blk t).view.emb (ix2 (0 : Fin 1) q)) = _
  refine congrArg (V c main_v23) (funext fun a => Fin.ext ?_)
  match a with
  | ⟨0, _⟩ => show win0_4.index t (0 : Fin 2) * 1 + 1 * 0 = 0; omega
  | ⟨1, _⟩ => show win0_4.index t (1 : Fin 2) * 128 + 1 * q.val = win0_6.index t (1 : Fin 2) * 128 + 1 * q.val; omega

/-- The self weights: the whole matrix at every point. -/
theorem read_wr (k : Fin 128) :
    iblk0 V c 5 t (ix2 k q) = V c main_arg4 (ix2 k (col (((cfg0.win 6).blk t).view.emb (ix2 p q)))) := by
  obtain ⟨e0, e1, e2, e3, e4, e5, e6, e7, e8, e9, e10, e11, e12, e13⟩ := idx_facts t
  show V c main_arg4 (((cfg0.win 5).blk t).view.emb (ix2 k q)) = _
  refine congrArg (V c main_arg4) (funext fun a => Fin.ext ?_)
  match a with
  | ⟨0, _⟩ => show win0_5.index t (0 : Fin 2) * 128 + 1 * k.val = k.val; omega
  | ⟨1, _⟩ => show win0_5.index t (1 : Fin 2) * 128 + 1 * q.val = win0_6.index t (1 : Fin 2) * 128 + 1 * q.val; omega

/-- The body's stored value at entry `(p, q)` of point `t`'s block is the layer at that entry's place in the array. -/
theorem point_eq :
    k0_pay1 (F := Ideal) (iblk0 V c 0 t) (iblk0 V c 1 t) (iblk0 V c 2 t) (iblk0 V c 3 t) (iblk0 V c 5 t) (iblk0 V c 4 t) (ix2 p q)
      = layerArr (V c main_v22) (V c main_v12) (V c main_arg0) (V c main_arg2) (V c main_v23) (V c main_arg4)
          (((cfg0.win 6).blk t).view.emb (ix2 p q)) := by
  refine (Pay.k0_pay1_at _ _ _ _ _ _ p q).trans ?_
  unfold layerArr
  exact Pay.layerEntry_congr (fun k => read_agg V c t p q k) (fun k => read_self V c t p q k) (read_inv V c t p q)
    (fun k => read_wl V c t p q k) (fun k => read_wr V c t p q k) (read_b V c t p q)

end Reads

/-- What point `t` writes back is its rows of the layer of the arrays as the call finds them. -/
theorem flushed_eq (c : Dev nD) (t : Fin cfg0.N) :
    (dat0 V c).flushed 6 t = ((cfg0.win 6).blk t).view.read (Elt Ideal)
      (layerArr (V c main_v22) (V c main_v12) (V c main_arg0) (V c main_arg2) (V c main_v23) (V c main_arg4)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  exact point_eq V c t p q

/-- An array entry is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- Every entry of the output array is in some point's block: node `n` is written by point `n / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY of the first call, after its last point: the layer of the arrays as the call finds them. -/
theorem final (c : Dev nD) :
    (dat0 V c).arrAt 6 cfg0.N
      = layerArr (V c main_v22) (V c main_v12) (V c main_arg0) (V c main_arg2) (V c main_v23) (V c main_arg4) :=
  (dat0 V c).arrAt_eq_of_cover 6 _ (fun t _ => flushed_eq V c t) cover

end Cert.KernelIdeal.Blocks

end
-- ==== Proof.Blocks1.lean ====
/-
  The second pallas_call, from blocks to the whole array.

  Point `t` of its 20 again works on node rows `5000 t … 5000 t + 4999`: from those rows of the second aggregate, of
  the reciprocal-degree column and of the first layer's output, and the whole of the second layer's weights and
  bias, it forms the second layer; multiplies it by the output weights padded to 128 columns, adds the padded output
  bias, and writes column 0 of the result to those rows of the `[100000, 1]` output.  Entry `n` of the output depends
  only on row `n` of the row-blocked inputs, so the output array ends as one function of the whole arrays.
-/
import proofs.«122971_j81681688035648_2_alg».proof.Proof.Gen.KernelIdeal.Frame
import proofs.«122971_j81681688035648_2_alg».proof.Proof.KernelPay
import Idealize.ShloMosaic.Lib.Pipeline.Value

set_option maxRecDepth 16384

noncomputable section

namespace Cert.KernelIdeal.Head

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The node of an entry of the `[100000, 1]` output. -/
abbrev node (i : S100000x1.Idx) : Fin 100000 := ⟨(i 0).val, (i 0).isLt⟩

/-- The second layer followed by the output projection, on whole arrays, in the kernel's arrangement: entry `n` is
    the sum over the 128 hidden features `j` of the layer's entry `(n, j)` times column 0 of the padded output weights,
    plus entry (0, 0) of the padded output bias. -/
def headArr (a : S100000x128.Idx → EReal) (inv : S100000x1.Idx → EReal) (x : S100000x128.Idx → EReal)
    (wl : S128x128.Idx → EReal) (b : S1x128.Idx → EReal) (wr : S128x128.Idx → EReal)
    (wo : S128x128.Idx → EReal) (bo : S1x128.Idx → EReal) : S100000x1.Idx → EReal :=
  fun i => (∑ j : Fin 128, Pay.layerEntry (fun k => a (ix2 (node i) k)) (fun k => x (ix2 (node i) k)) (inv (ix2 (node i) (0 : Fin 1)))
      (fun k => wl (ix2 k j)) (fun k => wr (ix2 k j)) (b (ix2 (0 : Fin 1) j)) * wo (ix2 j (0 : Fin 128)))
    + bo (ix2 (0 : Fin 1) (0 : Fin 128))

/-- The printed index maps over the grid: the three row-blocked inputs move with the output's row block and sit at
    column block 0; the five whole-array inputs stay at block (0, 0); the output's row block is below 20. -/
theorem idx_facts : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (1 : Fin 2) = 0 ∧ win1_8.index t (0 : Fin 2) ≤ 19 :=
  (by decide +kernel : ∀ t : Fin grid1.N, _)

/-- Every row block is some point's. -/
theorem idx_onto : ∀ q0 : Fin 20, ∃ t : Fin cfg1.N, win1_8.index t = ![q0.val, 0] :=
  (by decide +kernel : ∀ q0 : Fin 20, ∃ t : Fin grid1.N, win1_8.index t = ![q0.val, 0])

/-! ## The input blocks of point `t`, read where the output's row says -/

section Reads
variable (c : Dev nD) (t : Fin cfg1.N) (p : Fin 5000) (u : Fin 1)

theorem read_agg (k : Fin 128) :
    iblk1 V c 0 t (ix2 p k) = V c main_v34 (ix2 (node (((cfg1.win 8).blk t).view.emb (ix2 p u))) k) := by
  obtain ⟨e0, e1, e2, e3, e4, e5, e6, e7, e8, e9, e10, e11, e12, e13, e14, e15, e16, e17⟩ := idx_facts t
  show V c main_v34 (((cfg1.win 0).blk t).view.emb (ix2 p k)) = _
  refine congrArg (V c main_v34) (funext fun a => Fin.ext ?_)
  match a with
  | ⟨0, _⟩ => show win1_0.index t (0 : Fin 2) * 5000 + 1 * p.val = win1_8.index t (0 : Fin 2) * 5000 + 1 * p.val; omega
  | ⟨1, _⟩ => show win1_0.index t (1 : Fin 2) * 128 + 1 * k.val = k.val; omega

theorem read_inv :
    iblk1 V c 1 t (ix2 p (0 : Fin 1)) = V c main_v12 (ix2 (node (((cfg1.win 8).blk t).view.emb (ix2 p u))) (0 : Fin 1)) := by
  obtain ⟨e0, e1, e2, e3, e4, e5, e6, e7, e8, e9, e10, e11, e12, e13, e14, e15, e16, e17⟩ := idx_facts t
  show V c main_v12 (((cfg1.win 1).blk t).view.emb (ix2 p (0 : Fin 1))) = _
  refine congrArg (V c main_v12) (funext fun a => Fin.ext ?_)
  match a with
  | ⟨0, _⟩ => show win1_1.index t (0 : Fin 2) * 5000 + 1 * p.val = win1_8.index t (0 : Fin 2) * 5000 + 1 * p.val; omega
  | ⟨1, _⟩ => show win1_1.index t (1 : Fin 2) * 1 + 1 * 0 = 0; omega

theorem read_self (k : Fin 128) :
    iblk1 V c 2 t (ix2 p k) = V c main_v24 (ix2 (node (((cfg1.win 8).blk t).view.emb (ix2 p u))) k) := by
  obtain ⟨e0, e1, e2, e3, e4, e5, e6, e7, e8, e9, e10, e11, e12, e13, e14, e15, e16, e17⟩ := idx_facts t
  show V c main_v24 (((cfg1.win 2).blk t).view.emb (ix2 p k)) = _
  refine congrArg (V c main_v24) (funext fun a => Fin.ext ?_)
  match a with
  | ⟨0, _⟩ => show win1_2.index t (0 : Fin 2) * 5000 + 1 * p.val = win1_8.index t (0 : Fin 2) * 5000 + 1 * p.val; omega
  | ⟨1, _⟩ => show win1_2.index t (1 : Fin 2) * 128 + 1 * k.val = k.val; omega

theorem read_wl (k j : Fin 128) : iblk1 V c 3 t (ix2 k j) = V c main_arg5 (ix2 k j) := by
  obtain ⟨e0, e1, e2, e3, e4, e5, e6, e7, e8, e9, e10, e11, e12, e13, e14, e15, e16, e17⟩ := idx_facts t
  show V c main_arg5 (((cfg1.win 3).blk t).view.emb (ix2 k j)) = _
  refine congrArg (V c main_arg5) (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

theorem read_b (j : Fin 128) : iblk1 V c 4 t (ix2 (0 : Fin 1) j) = V c main_v38 (ix2 (0 : Fin 1) j) := by
  obtain ⟨e0, e1, e2, e3, e4, e5, e6, e7, e8, e9, e10, e11, e12, e13, e14, e15, e16, e17⟩ := idx_facts t
  show V c main_v38 (((cfg1.win 4).blk t).view.emb (ix2 (0 : Fin 1) j)) = _
  refine congrArg (V c main_v38) (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

theorem read_wr (k j : Fin 128) : iblk1 V c 5 t (ix2 k j) = V c main_arg7 (ix2 k j) := by
  obtain ⟨e0, e1, e2, e3, e4, e5, e6, e7, e8, e9, e10, e11, e12, e13, e14, e15, e16, e17⟩ := idx_facts t
  show V c main_arg7 (((cfg1.win 5).blk t).view.emb (ix2 k j)) = _
  refine congrArg (V c main_arg7) (funext fun a => Fin.ext ?_)
  match a with
  | ⟨0, _⟩ => show win1_5.index t (0 : Fin 2) * 128 + 1 * k.val = k.val; omega
  | ⟨1, _⟩ => show win1_5.index t (1 : Fin 2) * 128 + 1 * j.val = j.val; omega

theorem read_wo (k j : Fin 128) : iblk1 V c 6 t (ix2 k j) = V c main_v35 (ix2 k j) := by
  obtain ⟨e0, e1, e2, e3, e4, e5, e6, e7, e8, e9, e10, e11, e12, e13, e14, e15, e16, e17⟩ := idx_facts t
  show V c main_v35 (((cfg1.win 6).blk t).view.emb (ix2 k j)) = _
  refine congrArg (V c main_v35) (funext fun a => Fin.ext ?_)
  match a with
  | ⟨0, _⟩ => show win1_6.index t (0 : Fin 2) * 128 + 1 * k.val = k.val; omega
  | ⟨1, _⟩ => show win1_6.index t (1 : Fin 2) * 128 + 1 * j.val = j.val; omega

theorem read_bo (j : Fin 128) : iblk1 V c 7 t (ix2 (0 : Fin 1) j) = V c main_v37 (ix2 (0 : Fin 1) j) := by
  obtain ⟨e0, e1, e2, e3, e4, e5, e6, e7, e8, e9, e10, e11, e12, e13, e14, e15, e16, e17⟩ := idx_facts t
  show V c main_v37 (((cfg1.win 7).blk t).view.emb (ix2 (0 : Fin 1) j)) = _
  refine congrArg (V c main_v37) (funext fun a => Fin.ext ?_)
  match a with
  | ⟨0, _⟩ => show win1_7.index t (0 : Fin 2) * 1 + 1 * 0 = 0; omega
  | ⟨1, _⟩ => show win1_7.index t (1 : Fin 2) * 128 + 1 * j.val = j.val; omega

/-- The body's stored value at row `p` of point `t`'s block is the output function at that row's node. -/
theorem point_eq :
    k1_pay1 (F := Ideal) (iblk1 V c 0 t) (iblk1 V c 1 t) (iblk1 V c 2 t) (iblk1 V c 3 t) (iblk1 V c 5 t) (iblk1 V c 4 t)
        (iblk1 V c 6 t) (iblk1 V c 7 t) (ix2 p u)
      = headArr (V c main_v34) (V c main_v12) (V c main_v24) (V c main_arg5) (V c main_v38) (V c main_arg7) (V c main_v35) (V c main_v37)
          (((cfg1.win 8).blk t).view.emb (ix2 p u)) := by
  refine (Pay.k1_pay1_at _ _ _ _ _ _ _ _ p u).trans ?_
  unfold headArr
  rw [read_bo V c t (0 : Fin 128)]
  refine congrArg (· + V c main_v37 (ix2 (0 : Fin 1) (0 : Fin 128))) (Finset.sum_congr rfl fun j _ => ?_)
  rw [read_wo V c t j (0 : Fin 128)]
  exact congrArg (· * V c main_v35 (ix2 j (0 : Fin 128)))
    (Pay.layerEntry_congr (fun k => read_agg V c t p u k) (fun k => read_self V c t p u k) (read_inv V c t p u)
      (fun k => read_wl V c t k j) (fun k => read_wr V c t k j) (read_b V c t j))

end Reads

/-- What point `t` writes back is its rows of the output function of the arrays as the call finds them. -/
theorem flushed_eq (c : Dev nD) (t : Fin cfg1.N) :
    (dat1 V c).flushed 8 t = ((cfg1.win 8).blk t).view.read (Elt Ideal)
      (headArr (V c main_v34) (V c main_v12) (V c main_v24) (V c main_arg5) (V c main_v38) (V c main_arg7) (V c main_v35) (V c main_v37)) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, u, rfl⟩ : ∃ (p : Fin 5000) (u : Fin 1), j = ix2 p u := ⟨j 0, j 1, eq_ix2 j⟩
  exact point_eq V c t p u

theorem mem_blk (t : Fin cfg1.N) (i : S100000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v39).slice (win1_8.rect t)).set ↔ _
  rw [View.set_slice_whole, Rect.mem_set_unit]
  exact Iff.rfl

/-- Every entry of the output is in some point's block: node `n` is written by point `n / 5000`. -/
theorem cover (i : S100000x1.Idx) :
    ∃ t : Fin cfg1.N, (cfg1.win 8).flush t = true ∧ i ∈ ((cfg1.win 8).blk t).view.set := by
  have hi0 : (i 0).val < 100000 := (i 0).isLt
  have hi1 : (i 1).val < 1 := (i 1).isLt
  obtain ⟨t, ht⟩ := idx_onto ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 1 ≤ (i 1).val ∧ (i 1).val < win1_8.index t (1 : Fin 2) * 1 + 1; omega

/-- THE OUTPUT ARRAY of the second call, after its last point. -/
theorem final (c : Dev nD) :
    (dat1 V c).arrAt 8 cfg1.N
      = headArr (V c main_v34) (V c main_v12) (V c main_v24) (V c main_arg5) (V c main_v38) (V c main_arg7) (V c main_v35) (V c main_v37) :=
  (dat1 V c).arrAt_eq_of_cover 8 _ (fun t _ => flushed_eq V c t) cover

end Cert.KernelIdeal.Head

end
-- ==== Proof.RefAgg.lean ====
/-
  The part of the reference both programs share: neighbour aggregation and the clamped in-degree.

  Both programs gather the source node's feature row for every edge and add it into the destination node's row
  (with the same normalisation of negative indices, the same gather and scatter conventions), and both count the
  edges into each node and clamp the count below by one.  Neither the gather nor the scatter-add is ever opened:
  they are carried as one function `agg h e` of a feature array `h` and the edge list `e`, and the clamped degree as
  one function of `e`.  The reference's two layers aggregate with textually the same operations, so its second
  aggregate is `agg` of its first layer's output.
-/
import proofs.«122971_j81681688035648_2_alg».proof.Proof.Gen.ReferenceIdeal.Read

noncomputable section

namespace Cert.ReferenceIdeal.Agg

open Cert.ReferenceIdeal Cert.ReferenceIdeal.Gen Cert.ReferenceIdeal.Read Idealize.ShloMosaic Idealize.ShloMosaic.TcCoe

variable {F : FTy → Type} [FloatOps F]

/-- Summed neighbour features from explicit source and destination vectors: for each edge the row of `h` at its
    source (a negative index normalised by adding the node count), added into its destination's row of a zero array. -/
def aggOf (h : (⟨S100000x128, .f32⟩ : BufTy).Contents (Elt F)) (src dst : (⟨S640000, .i32⟩ : BufTy).Contents (Elt F)) :
    (⟨S100000x128, .f32⟩ : BufTy).Contents (Elt F) :=
  Host.scatterAdd scatter_S100000x128_S640000x1_S640000x128_1_0_0_1 (val_main_v11 (F := F))
    (broadcastInDim S640000x1 ![0] bcast_S640000_S640000x1_0 dst)
    (Host.gather gather_S100000x128_S640000x1_S640000x128_1_0_n_n_0_1_1128 h
      (broadcastInDim S640000x1 ![0] bcast_S640000_S640000x1_0
        (select (cmpi .slt src (val_main_v4 (F := F))) (addi src (val_main_v6 (F := F))) src)))

/-- The edge list's source row and destination row, each as a vector. -/
abbrev srcOf (e : (⟨S2x640000, .i32⟩ : BufTy).Contents (Elt F)) : (⟨S640000, .i32⟩ : BufTy).Contents (Elt F) := val_main_v1 (F := F) e
abbrev dstOf (e : (⟨S2x640000, .i32⟩ : BufTy).Contents (Elt F)) : (⟨S640000, .i32⟩ : BufTy).Contents (Elt F) := val_main_v3 (F := F) e

/-- Summed neighbour features over the edge list `e`. -/
def agg (h : (⟨S100000x128, .f32⟩ : BufTy).Contents (Elt F)) (e : (⟨S2x640000, .i32⟩ : BufTy).Contents (Elt F)) :
    (⟨S100000x128, .f32⟩ : BufTy).Contents (Elt F) :=
  aggOf h (srcOf e) (dstOf e)

/-- The in-degree of each node clamped below by one. -/
abbrev clampDeg (e : (⟨S2x640000, .i32⟩ : BufTy).Contents (Elt F)) : (⟨S100000, .f32⟩ : BufTy).Contents (Elt F) :=
  val_main_v19 (F := F) e

theorem v13_eq (x0 : (⟨S100000x128, .f32⟩ : BufTy).Contents (Elt F)) (x1 : (⟨S2x640000, .i32⟩ : BufTy).Contents (Elt F)) :
    val_main_v13 (F := F) x0 x1 = agg x0 x1 := rfl

theorem v43_eq (x0 : (⟨S100000x128, .f32⟩ : BufTy).Contents (Elt F)) (x1 : (⟨S2x640000, .i32⟩ : BufTy).Contents (Elt F))
    (x2 : (⟨S128x128, .f32⟩ : BufTy).Contents (Elt F)) (x3 : (⟨S128, .f32⟩ : BufTy).Contents (Elt F)) (x4 : (⟨S128x128, .f32⟩ : BufTy).Contents (Elt F)) :
    val_main_v43 (F := F) x0 x1 x2 x3 x4 = agg (val_main_v29 (F := F) x0 x1 x2 x3 x4) x1 := rfl

theorem v49_eq (x1 : (⟨S2x640000, .i32⟩ : BufTy).Contents (Elt F)) : val_main_v49 (F := F) x1 = clampDeg x1 := rfl

end Cert.ReferenceIdeal.Agg

end
-- ==== Proof.HostReads.lean ====
/-
  What the two pallas_calls find in their input arrays, as functions of the launch memory.

  Before the first call the host computes the in-degree, clamps it, takes the reciprocal and reshapes it to a column;
  gathers and sums the neighbours' features; and reshapes the first bias to a row.  Between the calls it gathers and
  sums the rows of the first call's OUTPUT, pads the output weights and bias to 128 columns with zeros, and reshapes
  the second bias.  No host operation writes an argument, the index vectors or the reciprocal column again, so the
  second call finds them as the first did.
-/
import proofs.«122971_j81681688035648_2_alg».proof.Proof.Gen.KernelIdeal.Frame
import proofs.«122971_j81681688035648_2_alg».proof.Proof.RefAgg
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Idealize.SL Idealize.SL.Sem

/-- The reciprocal of a clamped degree vector, as a column: `1 / mx` reshaped from `[100000]` to `[100000, 1]`. -/
def invCol (mx : S100000.Idx → EReal) : S100000x1.Idx → EReal :=
  shapeCast S100000x1 (Host.divf (F := Ideal) (φ := .f32) (broadcastInDim S100000 ![] bcast_S_S100000 (constant (F := Ideal) S_ .f32 0x3F800000#32)) mx)
    shapeCasts_S100000_S100000x1

variable (W : Valuation τ sig (Elt Ideal))

/-! ## The host operations before the first call, from any contents `W` -/

set_option maxHeartbeats 4000000 in
open Cert.ReferenceIdeal.Agg in
/-- The aggregate of the input features. -/
theorem pre_agg : StableHlo.after hostOps0 W (Proc.devRef .tc main_v22)
    = agg (F := Ideal) (W (Proc.devRef .tc main_arg0)) (W (Proc.devRef .tc main_arg1)) := by
  after_results
  rfl

set_option maxHeartbeats 4000000 in
open Cert.ReferenceIdeal.Agg in
/-- The reciprocal clamped degree, as a column. -/
theorem pre_inv : StableHlo.after hostOps0 W (Proc.devRef .tc main_v12)
    = invCol (clampDeg (F := Ideal) (W (Proc.devRef .tc main_arg1))) := by
  after_results
  rfl

set_option maxHeartbeats 4000000 in
/-- The first bias, as a row. -/
theorem pre_bias : StableHlo.after hostOps0 W (Proc.devRef .tc main_v23)
    = (shapeCast S1x128 (W (Proc.devRef .tc main_arg3)) shapeCasts_S128_S1x128 : S1x128.Idx → EReal) := by
  after_results
  rfl

set_option maxHeartbeats 4000000 in
open Cert.ReferenceIdeal.Agg in
/-- The source and destination vectors. -/
theorem pre_src : StableHlo.after hostOps0 W (Proc.devRef .tc main_v1) = srcOf (F := Ideal) (W (Proc.devRef .tc main_arg1)) := by
  after_results
  rfl
set_option maxHeartbeats 4000000 in
open Cert.ReferenceIdeal.Agg in
theorem pre_dst : StableHlo.after hostOps0 W (Proc.devRef .tc main_v3) = dstOf (F := Ideal) (W (Proc.devRef .tc main_arg1)) := by
  after_results
  rfl

/-! No host operation before the first call writes an argument. -/

set_option maxHeartbeats 4000000 in
theorem pre_arg0 : StableHlo.after hostOps0 W (Proc.devRef .tc main_arg0) = W (Proc.devRef .tc main_arg0) := by
  after_results
set_option maxHeartbeats 4000000 in
theorem pre_arg2 : StableHlo.after hostOps0 W (Proc.devRef .tc main_arg2) = W (Proc.devRef .tc main_arg2) := by
  after_results
set_option maxHeartbeats 4000000 in
theorem pre_arg3 : StableHlo.after hostOps0 W (Proc.devRef .tc main_arg3) = W (Proc.devRef .tc main_arg3) := by
  after_results
set_option maxHeartbeats 4000000 in
theorem pre_arg4 : StableHlo.after hostOps0 W (Proc.devRef .tc main_arg4) = W (Proc.devRef .tc main_arg4) := by
  after_results
set_option maxHeartbeats 4000000 in
theorem pre_arg5 : StableHlo.after hostOps0 W (Proc.devRef .tc main_arg5) = W (Proc.devRef .tc main_arg5) := by
  after_results
set_option maxHeartbeats 4000000 in
theorem pre_arg6 : StableHlo.after hostOps0 W (Proc.devRef .tc main_arg6) = W (Proc.devRef .tc main_arg6) := by
  after_results
set_option maxHeartbeats 4000000 in
theorem pre_arg7 : StableHlo.after hostOps0 W (Proc.devRef .tc main_arg7) = W (Proc.devRef .tc main_arg7) := by
  after_results
set_option maxHeartbeats 4000000 in
theorem pre_arg8 : StableHlo.after hostOps0 W (Proc.devRef .tc main_arg8) = W (Proc.devRef .tc main_arg8) := by
  after_results
set_option maxHeartbeats 4000000 in
theorem pre_arg9 : StableHlo.after hostOps0 W (Proc.devRef .tc main_arg9) = W (Proc.devRef .tc main_arg9) := by
  after_results

/-! ## The host operations between the two calls, from any contents `W` -/

/-- The five stretches between the calls, applied in order. -/
def mid (W : Valuation τ sig (Elt Ideal)) : Valuation τ sig (Elt Ideal) :=
  StableHlo.after hostOps1_4 (StableHlo.after hostOps1_3 (StableHlo.after hostOps1_2 (StableHlo.after hostOps1_1 (StableHlo.after hostOps1 W))))

set_option maxHeartbeats 4000000 in
open Cert.ReferenceIdeal.Agg in
/-- The aggregate of the first call's output, over the source and destination vectors computed before the first call. -/
theorem mid_agg : mid W (Proc.devRef .tc main_v34)
    = aggOf (F := Ideal) (W (Proc.devRef .tc main_v24)) (W (Proc.devRef .tc main_v1)) (W (Proc.devRef .tc main_v3)) := by
  unfold mid
  after_results
  rfl

/-! The reciprocal column, the first call's output and the second layer's weights are not written between the calls. -/

set_option maxHeartbeats 4000000 in
theorem mid_v12 : mid W (Proc.devRef .tc main_v12) = W (Proc.devRef .tc main_v12) := by
  unfold mid
  after_results
set_option maxHeartbeats 4000000 in
theorem mid_v24 : mid W (Proc.devRef .tc main_v24) = W (Proc.devRef .tc main_v24) := by
  unfold mid
  after_results
set_option maxHeartbeats 4000000 in
theorem mid_arg5 : mid W (Proc.devRef .tc main_arg5) = W (Proc.devRef .tc main_arg5) := by
  unfold mid
  after_results
set_option maxHeartbeats 4000000 in
theorem mid_arg7 : mid W (Proc.devRef .tc main_arg7) = W (Proc.devRef .tc main_arg7) := by
  unfold mid
  after_results

set_option maxHeartbeats 4000000 in
/-- The second bias, as a row. -/
theorem mid_bias : mid W (Proc.devRef .tc main_v38)
    = (shapeCast S1x128 (W (Proc.devRef .tc main_arg6)) shapeCasts_S128_S1x128 : S1x128.Idx → EReal) := by
  unfold mid
  after_results
  rfl

set_option maxHeartbeats 4000000 in
/-- The output weights padded with 127 columns of the padding value. -/
theorem mid_wo : ∃ v, mid W (Proc.devRef .tc main_v35)
    = (pad S128x128 ![0, 0] ![0, 127] ![0, 0] (W (Proc.devRef .tc main_arg8)) v pads_S128x1_S128x128_000_01270 h_S_ : S128x128.Idx → EReal) :=
  ⟨_, by unfold mid; after_results; rfl⟩

set_option maxHeartbeats 4000000 in
/-- The output bias, as a `[1, 1]` array padded with 127 columns of the padding value. -/
theorem mid_bo : ∃ v, mid W (Proc.devRef .tc main_v37)
    = (pad S1x128 ![0, 0] ![0, 127] ![0, 0] (shapeCast S1x1 (W (Proc.devRef .tc main_arg9)) shapeCasts_S1_S1x1) v pads_S1x1_S1x128_000_01270 h_S_ : S1x128.Idx → EReal) :=
  ⟨_, by unfold mid; after_results; rfl⟩

end Cert.KernelIdeal.Host

end
-- ==== Proof.RefValue.lean ====
/-
  The reference, stage by stage, read entry by entry on the extended reals.

  A layer of the reference at entry `(n, j)`: the aggregate's row `n` divided by node `n`'s clamped degree, times
  column `j` of the neighbour weights, summed over the 128 features; plus the bias at `j`; plus row `n` of the
  layer's input times column `j` of the self weights, summed; clamped below by zero.  The output projection at node
  `n`: the second layer's row `n` times the one column of the output weights, summed, plus the output bias.
-/
import proofs.«122971_j81681688035648_2_alg».proof.Proof.Gen.ReferenceIdeal.Read
import proofs.«122971_j81681688035648_2_alg».proof.Proof.RefAgg
import Idealize.ShloMosaic.Lib.ValueIdx

noncomputable section

namespace Cert.ReferenceIdeal.RefValue

open Cert.ReferenceIdeal Cert.ReferenceIdeal.Gen Cert.ReferenceIdeal.Read Cert.ReferenceIdeal.Agg
open Idealize.ShloMosaic Idealize.ShloMosaic.TcCoe Idealize.ShloMosaic.ValueIdx

abbrev row (i : S100000x128.Idx) : Fin 100000 := ⟨(i 0).val, (i 0).isLt⟩
abbrev col (i : S100000x128.Idx) : Fin 128 := ⟨(i 1).val, (i 1).isLt⟩
abbrev node (i : S100000x1.Idx) : Fin 100000 := ⟨(i 0).val, (i 0).isLt⟩

/-- One entry of a layer in the reference's arrangement, from the rows and columns it depends on and the node's
    clamped degree `m`. -/
def refEntry (a x : Fin 128 → EReal) (m : EReal) (wl wr : Fin 128 → EReal) (b : EReal) : EReal :=
  max ((∑ k : Fin 128, Ideal.div (a k) m * wl k + b) + ∑ k : Fin 128, x k * wr k) (Ideal.ofBits .f32 0x00000000#32)

/-! ## The stages' index maps are the coordinate constructors -/

theorem lidx23 (i : S100000x128.Idx) (k : Fin 128) : lidx_main_v23 i k = ix2 (row i) k :=
  funext fun a => by match a with | ⟨0, _⟩ => rfl | ⟨1, _⟩ => rfl
theorem ridx23 (i : S100000x128.Idx) (k : Fin 128) : ridx_main_v23 i k = ix2 k (col i) :=
  funext fun a => by match a with | ⟨0, _⟩ => rfl | ⟨1, _⟩ => rfl
theorem lidx27 (i : S100000x128.Idx) (k : Fin 128) : lidx_main_v27 i k = ix2 (row i) k :=
  funext fun a => by match a with | ⟨0, _⟩ => rfl | ⟨1, _⟩ => rfl
theorem ridx27 (i : S100000x128.Idx) (k : Fin 128) : ridx_main_v27 i k = ix2 k (col i) :=
  funext fun a => by match a with | ⟨0, _⟩ => rfl | ⟨1, _⟩ => rfl
theorem idx20_21 (n : Fin 100000) (k : Fin 128) : idx_main_v20 (idx_main_v21 (ix2 n k)) = ix1 n :=
  funext fun a => by match a with | ⟨0, _⟩ => rfl
theorem idx24_25 (i : S100000x128.Idx) : idx_main_v24 (idx_main_v25 i) = ix1 (col i) :=
  funext fun a => by match a with | ⟨0, _⟩ => rfl
theorem lidx53 (i : S100000x128.Idx) (k : Fin 128) : lidx_main_v53 i k = ix2 (row i) k :=
  funext fun a => by match a with | ⟨0, _⟩ => rfl | ⟨1, _⟩ => rfl
theorem ridx53 (i : S100000x128.Idx) (k : Fin 128) : ridx_main_v53 i k = ix2 k (col i) :=
  funext fun a => by match a with | ⟨0, _⟩ => rfl | ⟨1, _⟩ => rfl
theorem lidx57 (i : S100000x128.Idx) (k : Fin 128) : lidx_main_v57 i k = ix2 (row i) k :=
  funext fun a => by match a with | ⟨0, _⟩ => rfl | ⟨1, _⟩ => rfl
theorem ridx57 (i : S100000x128.Idx) (k : Fin 128) : ridx_main_v57 i k = ix2 k (col i) :=
  funext fun a => by match a with | ⟨0, _⟩ => rfl | ⟨1, _⟩ => rfl
theorem idx50_51 (n : Fin 100000) (k : Fin 128) : idx_main_v50 (idx_main_v51 (ix2 n k)) = ix1 n :=
  funext fun a => by match a with | ⟨0, _⟩ => rfl
theorem idx54_55 (i : S100000x128.Idx) : idx_main_v54 (idx_main_v55 i) = ix1 (col i) :=
  funext fun a => by match a with | ⟨0, _⟩ => rfl
theorem lidx60 (i : S100000x1.Idx) (k : Fin 128) : lidx_main_v60 i k = ix2 (node i) k :=
  funext fun a => by match a with | ⟨0, _⟩ => rfl | ⟨1, _⟩ => rfl
theorem ridx60 (i : S100000x1.Idx) (k : Fin 128) : ridx_main_v60 i k = ix2 k (0 : Fin 1) :=
  funext fun a => by
    match a with
    | ⟨0, _⟩ => rfl
    | ⟨1, _⟩ => exact Fin.ext (by have h : (i 1).val < 1 := (i 1).isLt; show (i 1).val = 0; omega)
theorem idx61_62 (i : S100000x1.Idx) : idx_main_v61 (idx_main_v62 i) = ix1 (0 : Fin 1) :=
  funext fun a => by match a with | ⟨0, _⟩ => rfl

/-! ## The two layers and the projection -/

theorem layer1_at (x0 : (⟨S100000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (i : S100000x128.Idx) :
    val_main_v29 (F := Ideal) x0 x1 x2 x3 x4 i
      = refEntry (fun k => agg (F := Ideal) x0 x1 (ix2 (row i) k)) (fun k => x0 (ix2 (row i) k)) (clampDeg (F := Ideal) x1 (ix1 (row i)))
          (fun k => x2 (ix2 k (col i))) (fun k => x4 (ix2 k (col i))) (x3 (ix1 (col i))) := by
  rw [val_main_v29_apply, val_main_v28_apply, val_main_v26_apply, val_main_v23_apply, val_main_v27_apply, val_main_v25_apply,
    val_main_v24_apply, val_main_call0_v0_apply, val_main_call0_cst_apply]
  have h1 : ∀ k : Fin 128, val_main_v22 (F := Ideal) x0 x1 (lidx_main_v23 i k) * x2 (ridx_main_v23 i k)
      = Ideal.div (agg (F := Ideal) x0 x1 (ix2 (row i) k)) (clampDeg (F := Ideal) x1 (ix1 (row i))) * x2 (ix2 k (col i)) := fun k => by
    rw [lidx23, ridx23, val_main_v22_apply, val_main_v21_apply, val_main_v20_apply, idx20_21]; rfl
  have h2 : ∀ k : Fin 128, x0 (lidx_main_v27 i k) * x4 (ridx_main_v27 i k) = x0 (ix2 (row i) k) * x4 (ix2 k (col i)) := fun k => by
    rw [lidx27, ridx27]
  rw [Finset.sum_congr rfl fun k _ => h1 k, Finset.sum_congr rfl fun k _ => h2 k, idx24_25]
  rfl

theorem layer2_at (x0 : (⟨S100000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (i : S100000x128.Idx) :
    val_main_v59 (F := Ideal) x0 x1 x2 x3 x4 x5 x6 x7 i
      = refEntry (fun k => agg (F := Ideal) (val_main_v29 (F := Ideal) x0 x1 x2 x3 x4) x1 (ix2 (row i) k))
          (fun k => val_main_v29 (F := Ideal) x0 x1 x2 x3 x4 (ix2 (row i) k)) (clampDeg (F := Ideal) x1 (ix1 (row i)))
          (fun k => x5 (ix2 k (col i))) (fun k => x7 (ix2 k (col i))) (x6 (ix1 (col i))) := by
  rw [val_main_v59_apply, val_main_v58_apply, val_main_v56_apply, val_main_v53_apply, val_main_v57_apply, val_main_v55_apply,
    val_main_v54_apply, val_main_call1_v0_apply, val_main_call1_cst_apply]
  have h1 : ∀ k : Fin 128, val_main_v52 (F := Ideal) x0 x1 x2 x3 x4 (lidx_main_v53 i k) * x5 (ridx_main_v53 i k)
      = Ideal.div (agg (F := Ideal) (val_main_v29 (F := Ideal) x0 x1 x2 x3 x4) x1 (ix2 (row i) k)) (clampDeg (F := Ideal) x1 (ix1 (row i))) * x5 (ix2 k (col i)) := fun k => by
    rw [lidx53, ridx53, val_main_v52_apply, val_main_v51_apply, val_main_v50_apply, idx50_51]; rfl
  have h2 : ∀ k : Fin 128, val_main_v29 (F := Ideal) x0 x1 x2 x3 x4 (lidx_main_v57 i k) * x7 (ridx_main_v57 i k)
      = val_main_v29 (F := Ideal) x0 x1 x2 x3 x4 (ix2 (row i) k) * x7 (ix2 k (col i)) := fun k => by
    rw [lidx57, ridx57]
  rw [Finset.sum_congr rfl fun k _ => h1 k, Finset.sum_congr rfl fun k _ => h2 k, idx54_55]
  rfl

theorem out_at (x0 : (⟨S100000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x1, .f32⟩ : BufTy).Contents (Elt Ideal)) (x9 : (⟨S1, .f32⟩ : BufTy).Contents (Elt Ideal)) (i : S100000x1.Idx) :
    val_main_v63 (F := Ideal) x0 x1 x2 x3 x4 x5 x6 x7 x8 x9 i
      = (∑ k : Fin 128, val_main_v59 (F := Ideal) x0 x1 x2 x3 x4 x5 x6 x7 (ix2 (node i) k) * x8 (ix2 k (0 : Fin 1)))
          + x9 (ix1 (0 : Fin 1)) := by
  rw [val_main_v63_apply, val_main_v60_apply, val_main_v62_apply, val_main_v61_apply, idx61_62]
  have h : ∀ k : Fin 128, val_main_v59 (F := Ideal) x0 x1 x2 x3 x4 x5 x6 x7 (lidx_main_v60 i k) * x8 (ridx_main_v60 i k)
      = val_main_v59 (F := Ideal) x0 x1 x2 x3 x4 x5 x6 x7 (ix2 (node i) k) * x8 (ix2 k (0 : Fin 1)) := fun k => by
    rw [lidx60, ridx60]
  rw [Finset.sum_congr rfl fun k _ => h k]
  rfl

end Cert.ReferenceIdeal.RefValue

end
-- ==== Proof.Law.lean ====
/-
  The arithmetic on the extended reals that joins the two programs.

  The kernel scales each aggregated feature row by a precomputed reciprocal `1 / m` and the reference divides
  the row by `m`, where `m = max (deg, 1)` is the clamped in-degree of the node.  On the extended reals the
  quotient `x / m` is `x * m⁻¹` for every nonzero divisor, infinities included, so `x * (1 / m) = x / m` needs
  only `m ≠ 0`; and `max (d, 1)` is never zero because it is at least one.  Nothing here needs a finite input.
  The second law moves the bias across the second matrix product: addition on the extended reals is
  commutative and associative.
-/
import Idealize.ShloMosaic.PureOps.Ideal
import Idealize.ShloMosaic.Lib.IdealHost

namespace Cert.Sage

open Idealize.ShloMosaic

/-- Scaling by the reciprocal of a nonzero extended real is dividing by it. -/
theorem mul_recip_eq_div (a m : EReal) (hm : m ≠ 0) : a * Ideal.div 1 m = Ideal.div a m := by
  unfold Ideal.div
  rw [if_neg hm, if_neg hm, one_mul]

/-- A degree clamped below by one is not zero. -/
theorem max_one_ne_zero (d : EReal) : max d 1 ≠ 0 :=
  ne_of_gt (lt_of_lt_of_le zero_lt_one (le_max_right d 1))

/-- One output entry of a layer: with the aggregated row scaled by the reciprocal of a nonzero `m` and the bias
    added last (the kernel's arrangement), or with the row divided by `m` and the bias added between the two
    products (the reference's arrangement). -/
theorem layer_entry {K : Type} [Fintype K] (a x w r : K → EReal) (b m z : EReal) (hm : m ≠ 0) :
    max ((∑ k, (a k * Ideal.div 1 m) * w k + ∑ k, x k * r k) + b) z
      = max ((∑ k, Ideal.div (a k) m * w k + b) + ∑ k, x k * r k) z := by
  have h : ∀ k, (a k * Ideal.div 1 m) * w k = Ideal.div (a k) m * w k := fun k => by
    rw [mul_recip_eq_div (a k) m hm]
  rw [Finset.sum_congr rfl fun k _ => h k, add_right_comm]

end Cert.Sage
-- ==== Proof.Bridge.lean ====
/-
  The kernel's function of the arguments is the reference's.

  Layer by layer.  At entry `(n, j)` the kernel has the aggregate's row scaled by `1 / m_n`, the two products, then
  the bias; the reference has the row divided by `m_n`, the first product, the bias, then the second product; `m_n`
  is node `n`'s in-degree clamped below by one, so it is not zero and the two entries are equal on the extended
  reals whatever the inputs are.  The aggregate is the same function of its input on both sides, so equal first layers
  give equal second aggregates.  The kernel's output weights and bias are the reference's padded with columns the
  kernel never reads: it keeps column 0.
-/
import proofs.«122971_j81681688035648_2_alg».proof.Proof.Blocks0
import proofs.«122971_j81681688035648_2_alg».proof.Proof.Blocks1
import proofs.«122971_j81681688035648_2_alg».proof.Proof.HostReads
import proofs.«122971_j81681688035648_2_alg».proof.Proof.RefValue
import proofs.«122971_j81681688035648_2_alg».proof.Proof.Law
import Idealize.ShloMosaic.Lib.ValueLayout
import Idealize.ShloMosaic.Lib.KernelVsHost
import Idealize.ShloMosaic.Lib.IdealHost

noncomputable section

namespace Cert.Bridge

open Idealize.ShloMosaic Idealize.ShloMosaic.ValueIdx

/-! ## Small reads -/

/-- The reciprocal column at node `n` is one over the node's clamped degree. -/
theorem invCol_at (mx : Cert.KernelIdeal.S100000.Idx → EReal) (n : Fin 100000) :
    Cert.KernelIdeal.Host.invCol mx (ix2 n (0 : Fin 1)) = Ideal.div 1 (mx (ix1 n)) := by
  unfold Cert.KernelIdeal.Host.invCol
  rw [shapeCast_apply _ _ (ix2 n (0 : Fin 1)) (ix1 n) (by
    rw [Shape.rowMajor_val_two, Shape.rowMajor_val_one]
    show n.val = n.val * 1 + 0
    omega)]
  show Ideal.div (broadcastInDim Cert.KernelIdeal.S100000 ![] Cert.KernelIdeal.Facts₀.bcast_S_S100000
      (constant (F := Ideal) Cert.KernelIdeal.S_ .f32 0x3F800000#32) (ix1 n)) (mx (ix1 n)) = _
  rw [broadcastInDim_apply _ _ _ (ix1 n) ix0 (fun a => a.elim0)]
  show Ideal.div (Ideal.ofBits .f32 0x3F800000#32) _ = _
  rw [Ideal.ofBits_one_f32]

/-- A bias vector reshaped to a row, at feature `j`. -/
theorem biasRow_at (b : Cert.KernelIdeal.S128.Idx → EReal) (j : Fin 128) :
    shapeCast Cert.KernelIdeal.S1x128 b Cert.KernelIdeal.Facts₀.shapeCasts_S128_S1x128 (ix2 (0 : Fin 1) j) = b (ix1 j) :=
  shapeCast_a_1a_apply b _ (0 : Fin 1) j

/-- A clamped degree is at least one, so it is not zero. -/
theorem clampDeg_ne (e : (⟨Cert.ReferenceIdeal.S2x640000, .i32⟩ : BufTy).Contents (Elt Ideal)) (n : Fin 100000) :
    Cert.ReferenceIdeal.Agg.clampDeg (F := Ideal) e (ix1 n) ≠ 0 := by
  show Cert.ReferenceIdeal.Read.val_main_v19 (F := Ideal) e (ix1 n) ≠ 0
  rw [Cert.ReferenceIdeal.Read.val_main_v19_apply, Cert.ReferenceIdeal.Read.val_main_v18_apply,
    Cert.ReferenceIdeal.Read.val_main_cst_3_apply]
  show max _ (Ideal.ofBits .f32 0x3F800000#32) ≠ 0
  rw [Ideal.ofBits_one_f32]
  exact Cert.Sage.max_one_ne_zero _

/-- The padded output weights at column 0 are the output weights. -/
theorem padW_at (wo : Cert.KernelIdeal.S128x1.Idx → EReal) (v : Cert.KernelIdeal.S_.Idx → EReal) (k : Fin 128) :
    pad Cert.KernelIdeal.S128x128 ![0, 0] ![0, 127] ![0, 0] wo v Cert.KernelIdeal.Facts₀.pads_S128x1_S128x128_000_01270 Cert.KernelIdeal.Facts₀.h_S_
        (ix2 k (0 : Fin 128)) = wo (ix2 k (0 : Fin 1)) :=
  pad_apply_of_inside _ _ _ wo v _ _ (ix2 k (0 : Fin 128)) (ix2 k (0 : Fin 1)) (fun a => by
    match a with
    | ⟨0, _⟩ => show k.val = 0 + k.val * (0 + 1); omega
    | ⟨1, _⟩ => show 0 = 0 + 0 * (0 + 1); rfl)

/-- The padded output bias at (0, 0) is the output bias. -/
theorem padB_at (bo : Cert.KernelIdeal.S1.Idx → EReal) (v : Cert.KernelIdeal.S_.Idx → EReal) :
    pad Cert.KernelIdeal.S1x128 ![0, 0] ![0, 127] ![0, 0] (shapeCast Cert.KernelIdeal.S1x1 bo Cert.KernelIdeal.Facts₀.shapeCasts_S1_S1x1) v
        Cert.KernelIdeal.Facts₀.pads_S1x1_S1x128_000_01270 Cert.KernelIdeal.Facts₀.h_S_ (ix2 (0 : Fin 1) (0 : Fin 128)) = bo (ix1 (0 : Fin 1)) := by
  rw [pad_apply_of_inside _ _ _ _ v _ _ (ix2 (0 : Fin 1) (0 : Fin 128)) (ix2 (0 : Fin 1) (0 : Fin 1)) (fun a => by
    match a with
    | ⟨0, _⟩ => show 0 = 0 + 0 * (0 + 1); rfl
    | ⟨1, _⟩ => show 0 = 0 + 0 * (0 + 1); rfl)]
  exact shapeCast_a_1a_apply bo _ (0 : Fin 1) (0 : Fin 1)

/-! ## The first layer -/

/-- The kernel's first layer, over the shared aggregate and the reciprocal clamped degree, is the reference's. -/
theorem layer1_eq (x : Cert.KernelIdeal.S100000x128.Idx → EReal) (e : (⟨Cert.ReferenceIdeal.S2x640000, .i32⟩ : BufTy).Contents (Elt Ideal)) (w1l : Cert.KernelIdeal.S128x128.Idx → EReal) (b1 : Cert.KernelIdeal.S128.Idx → EReal) (w1r : Cert.KernelIdeal.S128x128.Idx → EReal) :
    Cert.KernelIdeal.Blocks.layerArr (Cert.ReferenceIdeal.Agg.agg (F := Ideal) x e)
        (Cert.KernelIdeal.Host.invCol (Cert.ReferenceIdeal.Agg.clampDeg (F := Ideal) e)) x w1l
        (shapeCast Cert.KernelIdeal.S1x128 b1 Cert.KernelIdeal.Facts₀.shapeCasts_S128_S1x128) w1r
      = Cert.ReferenceIdeal.Read.val_main_v29 (F := Ideal) x e w1l b1 w1r := by
  funext i
  rw [Cert.ReferenceIdeal.RefValue.layer1_at]
  unfold Cert.KernelIdeal.Blocks.layerArr Cert.KernelIdeal.Pay.layerEntry Cert.ReferenceIdeal.RefValue.refEntry
  rw [invCol_at, biasRow_at]
  exact Cert.Sage.layer_entry _ _ _ _ _ _ _ (clampDeg_ne e _)

/-! ## The second layer and the projection -/

theorem head_eq (x : Cert.KernelIdeal.S100000x128.Idx → EReal) (e : (⟨Cert.ReferenceIdeal.S2x640000, .i32⟩ : BufTy).Contents (Elt Ideal)) (w1l : Cert.KernelIdeal.S128x128.Idx → EReal) (b1 : Cert.KernelIdeal.S128.Idx → EReal) (w1r : Cert.KernelIdeal.S128x128.Idx → EReal) (w2l : Cert.KernelIdeal.S128x128.Idx → EReal) (b2 : Cert.KernelIdeal.S128.Idx → EReal) (w2r : Cert.KernelIdeal.S128x128.Idx → EReal) (wo : Cert.KernelIdeal.S128x1.Idx → EReal) (bo : Cert.KernelIdeal.S1.Idx → EReal) (v v' : Cert.KernelIdeal.S_.Idx → EReal) :
    Cert.KernelIdeal.Head.headArr
        (Cert.ReferenceIdeal.Agg.agg (F := Ideal) (Cert.ReferenceIdeal.Read.val_main_v29 (F := Ideal) x e w1l b1 w1r) e)
        (Cert.KernelIdeal.Host.invCol (Cert.ReferenceIdeal.Agg.clampDeg (F := Ideal) e))
        (Cert.ReferenceIdeal.Read.val_main_v29 (F := Ideal) x e w1l b1 w1r) w2l
        (shapeCast Cert.KernelIdeal.S1x128 b2 Cert.KernelIdeal.Facts₀.shapeCasts_S128_S1x128) w2r
        (pad Cert.KernelIdeal.S128x128 ![0, 0] ![0, 127] ![0, 0] wo v Cert.KernelIdeal.Facts₀.pads_S128x1_S128x128_000_01270 Cert.KernelIdeal.Facts₀.h_S_)
        (pad Cert.KernelIdeal.S1x128 ![0, 0] ![0, 127] ![0, 0] (shapeCast Cert.KernelIdeal.S1x1 bo Cert.KernelIdeal.Facts₀.shapeCasts_S1_S1x1) v'
          Cert.KernelIdeal.Facts₀.pads_S1x1_S1x128_000_01270 Cert.KernelIdeal.Facts₀.h_S_)
      = Cert.ReferenceIdeal.Read.val_main_v63 (F := Ideal) x e w1l b1 w1r w2l b2 w2r wo bo := by
  funext i
  rw [Cert.ReferenceIdeal.RefValue.out_at]
  unfold Cert.KernelIdeal.Head.headArr
  rw [padB_at]
  refine congrArg (· + bo (ix1 (0 : Fin 1))) (Finset.sum_congr rfl fun j _ => ?_)
  rw [padW_at, Cert.ReferenceIdeal.RefValue.layer2_at]
  refine congrArg (· * wo (ix2 j (0 : Fin 1))) ?_
  unfold Cert.KernelIdeal.Pay.layerEntry Cert.ReferenceIdeal.RefValue.refEntry
  rw [invCol_at, biasRow_at]
  exact Cert.Sage.layer_entry _ _ _ _ _ _ _ (clampDeg_ne e _)

end Cert.Bridge

end
-- ==== Proof.KernelValue.lean ====
/-
  What the kernel program's result buffer holds at the end, as the reference's function of the arguments.

  Read backwards from the last segment boundary: the result buffer holds what the second call's write-backs leave,
  which is the output function of that call's entry arrays; those are the aggregate of the first call's output, the
  reciprocal column, the first call's output itself, the second layer's parameters and the padded output parameters;
  the first call's output is the layer of ITS entry arrays, which are the aggregate of the input features, the same
  reciprocal column, the features and the first layer's parameters.  Then the two functions meet (Bridge).
-/
import proofs.«122971_j81681688035648_2_alg».proof.Proof.Bridge

set_option maxRecDepth 16384

noncomputable section

namespace Cert.KernelIdeal.Result

open Cert.KernelIdeal Cert.KernelIdeal.Gen Cert.KernelIdeal.Host
open Idealize.ShloMosaic Idealize.ShloMosaic.TcCoe Idealize.ShloMosaic.StableHlo
open Idealize.SL Idealize.SL.Sem
open Cert.ReferenceIdeal.Agg (agg aggOf clampDeg srcOf dstOf)

variable (m : (ℓ : Loc nD τ sig) → Buf (Elt Ideal) ℓ) (ρ : Dev nD → PrngReg) (c : Dev nD)

/-! ## The first call -/

/-- The first call's output array: the reference's first layer of the arguments. -/
theorem first_out : W2 m ρ c (Proc.devRef .tc main_v24)
    = Cert.ReferenceIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine ((W2_arr m ρ c 6).trans (Blocks.final (V1 m ρ) c)).trans ?_
  rw [show V1 m ρ c main_v22 = _ from pre_agg (W0 m ρ c), show V1 m ρ c main_v12 = _ from pre_inv (W0 m ρ c),
    show V1 m ρ c main_arg0 = _ from pre_arg0 (W0 m ρ c), show V1 m ρ c main_arg2 = _ from pre_arg2 (W0 m ρ c),
    show V1 m ρ c main_v23 = _ from pre_bias (W0 m ρ c), show V1 m ρ c main_arg4 = _ from pre_arg4 (W0 m ρ c)]
  exact Cert.Bridge.layer1_eq _ _ _ _ _

/-! ## Between the calls: what the first call's exit contents hold where the second call's inputs come from -/

theorem W2_src : W2 m ρ c (Proc.devRef .tc main_v1) = srcOf (F := Ideal) (m ((c : Thread nD τ).loc main_arg1)) :=
  (W2_of_ne m ρ c main_v1 (by decide)).trans (pre_src (W0 m ρ c))
theorem W2_dst : W2 m ρ c (Proc.devRef .tc main_v3) = dstOf (F := Ideal) (m ((c : Thread nD τ).loc main_arg1)) :=
  (W2_of_ne m ρ c main_v3 (by decide)).trans (pre_dst (W0 m ρ c))
theorem W2_inv : W2 m ρ c (Proc.devRef .tc main_v12) = invCol (clampDeg (F := Ideal) (m ((c : Thread nD τ).loc main_arg1))) :=
  ((W2_arr m ρ c 1).trans (((dat0 (V1 m ρ) c).arrAt_in 1 rfl _).trans (A_eq0 (V1 m ρ) c 1))).trans (pre_inv (W0 m ρ c))
theorem W2_arg5 : W2 m ρ c (Proc.devRef .tc main_arg5) = m ((c : Thread nD τ).loc main_arg5) :=
  (W2_of_ne m ρ c main_arg5 (by decide)).trans (pre_arg5 (W0 m ρ c))
theorem W2_arg6 : W2 m ρ c (Proc.devRef .tc main_arg6) = m ((c : Thread nD τ).loc main_arg6) :=
  (W2_of_ne m ρ c main_arg6 (by decide)).trans (pre_arg6 (W0 m ρ c))
theorem W2_arg7 : W2 m ρ c (Proc.devRef .tc main_arg7) = m ((c : Thread nD τ).loc main_arg7) :=
  (W2_of_ne m ρ c main_arg7 (by decide)).trans (pre_arg7 (W0 m ρ c))
theorem W2_arg8 : W2 m ρ c (Proc.devRef .tc main_arg8) = m ((c : Thread nD τ).loc main_arg8) :=
  (W2_of_ne m ρ c main_arg8 (by decide)).trans (pre_arg8 (W0 m ρ c))
theorem W2_arg9 : W2 m ρ c (Proc.devRef .tc main_arg9) = m ((c : Thread nD τ).loc main_arg9) :=
  (W2_of_ne m ρ c main_arg9 (by decide)).trans (pre_arg9 (W0 m ρ c))

/-! ## The second call -/

/-- THE RESULT BUFFER at the last boundary is the reference's function of the arguments. -/
theorem result_eq : W8 m ρ c (Proc.devRef .tc main_v39)
    = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  obtain ⟨v, hwo⟩ := mid_wo (W2 m ρ c)
  obtain ⟨v', hbo⟩ := mid_bo (W2 m ρ c)
  refine ((W8_arr m ρ c 8).trans (Head.final (V7 m ρ) c)).trans ?_
  have e34 : V7 m ρ c main_v34 = agg (F := Ideal) (Cert.ReferenceIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))) (m ((c : Thread nD τ).loc main_arg1)) := by
    refine (show V7 m ρ c main_v34 = _ from mid_agg (W2 m ρ c)).trans ?_
    rw [first_out, W2_src, W2_dst]
    rfl
  have e12 : V7 m ρ c main_v12 = invCol (clampDeg (F := Ideal) (m ((c : Thread nD τ).loc main_arg1))) :=
    (show V7 m ρ c main_v12 = _ from mid_v12 (W2 m ρ c)).trans (W2_inv m ρ c)
  have e24 : V7 m ρ c main_v24 = _ := (show V7 m ρ c main_v24 = _ from mid_v24 (W2 m ρ c)).trans (first_out m ρ c)
  have e5 : V7 m ρ c main_arg5 = _ := (show V7 m ρ c main_arg5 = _ from mid_arg5 (W2 m ρ c)).trans (W2_arg5 m ρ c)
  have e7 : V7 m ρ c main_arg7 = _ := (show V7 m ρ c main_arg7 = _ from mid_arg7 (W2 m ρ c)).trans (W2_arg7 m ρ c)
  have e38 : V7 m ρ c main_v38 = (shapeCast S1x128 (m ((c : Thread nD τ).loc main_arg6)) shapeCasts_S128_S1x128 : S1x128.Idx → EReal) := by
    refine (show V7 m ρ c main_v38 = _ from mid_bias (W2 m ρ c)).trans ?_
    rw [W2_arg6]
  have e35 : V7 m ρ c main_v35 = (pad S128x128 ![0, 0] ![0, 127] ![0, 0] (m ((c : Thread nD τ).loc main_arg8)) v pads_S128x1_S128x128_000_01270 h_S_ : S128x128.Idx → EReal) := by
    refine (show V7 m ρ c main_v35 = _ from hwo).trans ?_
    rw [W2_arg8]
  have e37 : V7 m ρ c main_v37 = (pad S1x128 ![0, 0] ![0, 127] ![0, 0] (shapeCast S1x1 (m ((c : Thread nD τ).loc main_arg9)) shapeCasts_S1_S1x1) v' pads_S1x1_S1x128_000_01270 h_S_ : S1x128.Idx → EReal) := by
    refine (show V7 m ρ c main_v37 = _ from hbo).trans ?_
    rw [W2_arg9]
  rw [e34, e12, e24, e5, e38, e7, e35, e37]
  exact Cert.Bridge.head_eq _ _ _ _ _ _ _ _ _ _ v v'

end Cert.KernelIdeal.Result

end
-- ==== Proof.lean ====
/-
  Two GraphSAGE layers (mean aggregation over incoming edges, a neighbour and a self linear map, a bias, relu) followed
  by a linear read-out to one number per node, over 100000 nodes with 128 features and 640000 edges.

  The kernel program computes the neighbour sums on the host, runs each layer as a pallas_call over blocks of 5000
  nodes — the division by the in-degree folded in as a product with a precomputed reciprocal column, the read-out
  fused into the second call through output weights padded to 128 columns — and returns the `[100000, 1]` result.
  The reference divides the neighbour sums by the clamped in-degree, adds the bias between the two matrix products,
  and multiplies by the unpadded output weights.

  On the extended reals the two are one function of the arguments:
    * a quotient by a nonzero `m` IS the product with `1 / m`, at infinite numerators too, and the clamped degree
      `max (deg, 1)` is never zero — so the claim needs no finiteness of any input;
    * moving the bias across the second product is commutativity and associativity of addition;
    * a matrix product into a zero accumulator, and the host's `dot_general`, are the same plain sum over the 128
      contracted features, and the changes of float format around them are the identity;
    * the padded columns of the output weights and bias are never read: the kernel keeps column 0;
    * gathering the source rows and scatter-adding them into the destination rows is the same function of its input
      in both programs, never opened.

  The three frame claims are the generated frame certificates (the reference's is its generated run with the result
  dropped); the idealization rewrote nothing, so `preserves` is `True`; `algebraic` posts both runs at the
  reference's last stage applied to the arguments.
-/
import proofs.«122971_j81681688035648_2_alg».proof.Defs
import proofs.«122971_j81681688035648_2_alg».proof.Proof.Gen.Kernel
import proofs.«122971_j81681688035648_2_alg».proof.Proof.Gen.Kernel.Skeleton
import proofs.«122971_j81681688035648_2_alg».proof.Proof.Gen.Kernel.Launch
import proofs.«122971_j81681688035648_2_alg».proof.Proof.Gen.Kernel.Points
import proofs.«122971_j81681688035648_2_alg».proof.Proof.Gen.Kernel.Frame
import proofs.«122971_j81681688035648_2_alg».proof.Proof.Gen.KernelIdeal
import proofs.«122971_j81681688035648_2_alg».proof.Proof.Gen.KernelIdeal.Skeleton
import proofs.«122971_j81681688035648_2_alg».proof.Proof.Gen.KernelIdeal.Launch
import proofs.«122971_j81681688035648_2_alg».proof.Proof.Gen.KernelIdeal.Points
import proofs.«122971_j81681688035648_2_alg».proof.Proof.Gen.KernelIdeal.Frame
import proofs.«122971_j81681688035648_2_alg».proof.Proof.Gen.ReferenceIdeal
import proofs.«122971_j81681688035648_2_alg».proof.Proof.Gen.Pre_finite_inputs
import proofs.«122971_j81681688035648_2_alg».proof.Proof.Gen.ReferenceIdeal.Run
import proofs.«122971_j81681688035648_2_alg».proof.Proof.Gen.ReferenceIdeal.Read
import proofs.«122971_j81681688035648_2_alg».proof.Proof.KernelRun
import proofs.«122971_j81681688035648_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end with the reference's function of the
    arguments in their result buffers, the arguments unchanged. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
